-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x8192, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x8192.size a
  hwx0_2 : ∀ i : grid0.Coords, EltTy.bits .f32 = 32 ∨ (Rect.block (s := S8192x8192) S2048x512.size (cc0_transform_2 i) (hinb0_2 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.RowProducts.lean ====
/-
  All pairwise inner products of the rows of two matrices.

  For A and B, both 8192 × 1024 over the extended reals, the 8192 × 8192 array whose entry (n, m) is
  the inner product of row n of A with row m of B: the sum over k of A (n, k) · B (m, k). With A and B
  the row-normalised inputs this is the table of pairwise cosine similarities. It is what a product
  A · Bᵀ computes, whether it is taken in one piece or tile by tile, since entry (n, m) reads row n of A
  and row m of B and nothing else.
-/
import Idealize.ShloMosaic.Lib.ValueIdx
import Idealize.ShloMosaic.PureOps.Ideal

noncomputable section

open scoped BigOperators

namespace Cert.Cosine

open Idealize.ShloMosaic Idealize.ShloMosaic.ValueIdx

/-- Entry (n, m) is the inner product of row n of `A` with row m of `B`. -/
def rowProducts (A B : (⟨2, ![8192, 1024]⟩ : Shape).Idx → EReal) : (⟨2, ![8192, 8192]⟩ : Shape).Idx → EReal :=
  fun i => ∑ k : Fin 1024, A (ix2 (n0 := 8192) (n1 := 1024) (i 0) k) * B (ix2 (n0 := 8192) (n1 := 1024) (i 1) k)

/-- The entry at explicit coordinates. -/
theorem rowProducts_apply (A B : (⟨2, ![8192, 1024]⟩ : Shape).Idx → EReal) (n m : Fin 8192) :
    rowProducts A B (ix2 n m) = ∑ k : Fin 1024, A (ix2 n k) * B (ix2 m k) := rfl

end Cert.Cosine

end
-- ==== Proof.ReferenceProducts.lean ====
/-
  The reference's result is the table of row products of its two normalised arrays.

  The reference divides every row of each input by the larger of its Euclidean norm and the threshold,
  and contracts the two normalised arrays over their second axis. Read at an entry (n, m) that
  contraction is the sum over k of (first normalised array at (n, k)) · (second at (m, k)).
-/
import proofs.«174538_j68917045232240_2_alg».proof.Proof.Gen.ReferenceIdeal.Read
import proofs.«174538_j68917045232240_2_alg».proof.Proof.RowProducts

noncomputable section

open scoped BigOperators

namespace Cert.Cosine

open Idealize.ShloMosaic Idealize.ShloMosaic.ValueIdx
open Cert.ReferenceIdeal Cert.ReferenceIdeal.Read

/-- The contraction over the shared axis, entry by entry, is the row products of the normalised arrays. -/
theorem reference_products (x0 x1 : (⟨S8192x1024, .f32⟩ : BufTy).Contents (Elt Ideal)) :
    val_main_v10 (F := Ideal) x0 x1 = rowProducts (val_main_v7 (F := Ideal) x0) (val_main_v9 (F := Ideal) x1) := by
  funext i
  rw [val_main_v10_apply]
  unfold rowProducts
  refine Finset.sum_congr rfl fun k _ => ?_
  have el : lidx_main_v10 i k = ix2 (n0 := 8192) (n1 := 1024) (i 0) k :=
    funext fun a => Fin.ext (by match a with | ⟨0, _⟩ => rfl | ⟨1, _⟩ => rfl)
  have er : ridx_main_v10 i k = ix2 (n0 := 8192) (n1 := 1024) (i 1) k :=
    funext fun a => Fin.ext (by match a with | ⟨0, _⟩ => rfl | ⟨1, _⟩ => rfl)
  rw [el, er]

end Cert.Cosine

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.BlockEntry.lean ====
/-
  One tile of the kernel: a 2048 × 1024 block of the first normalised array against a 512 × 1024 block
  of the second, contracted over the shared axis from a zero accumulator. Entry (p, q) of the tile is
  the inner product of row p of the first block with row q of the second.
-/
import proofs.«174538_j68917045232240_2_alg».proof.Proof.Gen.KernelIdeal.Skeleton
import proofs.«174538_j68917045232240_2_alg».proof.Proof.LibMatmulRows
import Idealize.ShloMosaic.Lib.Pipeline.Value

noncomputable section

open scoped BigOperators

namespace Cert.Cosine

open Idealize.ShloMosaic Idealize.ShloMosaic.ValueIdx
open Cert.KernelIdeal Cert.KernelIdeal.Gen

/-- The body's stored value at (p, q): both shape casts are to the same shape, and the product is rows against rows. -/
theorem tile_entry (x0 : Vec Ideal S2048x1024 .bf16) (x1 : Vec Ideal S512x1024 .bf16) (p : Fin 2048) (q : Fin 512) :
    k0_pay1 (F := Ideal) x0 x1 (ix2 p q) = ∑ k : Fin 1024, x0 (ix2 p k) * x1 (ix2 q k) := by
  unfold k0_pay1
  rw [shapeCast_self, shapeCast_self]
  exact Cert.MatmulRows.matmul_rows_apply dot_S2048x1024_S512x1024_S2048x512_1_1_0_0_n_n none rfl rfl rfl rfl rfl rfl x0 x1 p q

end Cert.Cosine

end
-- ==== Proof.TiledTable.lean ====
/-
  The kernel's result array, tile by tile, is the table of row products of its two staged arrays.

  The grid has 4 × 16 points. Point (a, b) stages rows 2048·a … 2048·a + 2047 of the first array and rows
  512·b … 512·b + 511 of the second, each with all 1024 columns, and writes back the 2048 × 512 tile of the
  result at block row a, block column b. Entry (p, q) of that tile is the inner product of row 2048·a + p of
  the first array with row 512·b + q of the second, which is the entry of the table of row products at the
  tile's place (2048·a + p, 512·b + q). The 64 tiles cover the 8192 × 8192 result, the point covering
  (n, m) being (n / 2048, m / 512), so after the run the result array is the whole table.
-/
import proofs.«174538_j68917045232240_2_alg».proof.Proof.Gen.KernelIdeal.Value
import proofs.«174538_j68917045232240_2_alg».proof.Proof.RowProducts
import proofs.«174538_j68917045232240_2_alg».proof.Proof.BlockEntry

noncomputable section

open scoped BigOperators

namespace Cert.Cosine

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The block indices at a grid point: the first window's block row is the tile's block row, the second
    window's block row is the tile's block column, both input windows sit at block column 0, and the tile's
    block indices stay inside 4 × 16. Decided over the 64 points. -/
theorem tile_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 15 :=
  (by decide +kernel : ∀ t : Fin grid0.N, _)

/-- Every tile of the 4 × 16 arrangement is some grid point's. -/
theorem tile_onto : ∀ (a : Fin 4) (b : Fin 16), ∃ t : Fin cfg0.N, win0_2.index t = ![a.val, b.val] :=
  (by decide +kernel : ∀ (a : Fin 4) (b : Fin 16), ∃ t : Fin grid0.N, win0_2.index t = ![a.val, b.val])

/-- WHAT POINT `t` WRITES BACK is tile `t` of the table of row products of the two staged arrays. -/
theorem tile_written (c : Dev nD) (t : Fin cfg0.N) :
    (dats m 0 c).flushed 2 t
      = ((cfg0.win 2).blk t).view.read (Elt Ideal) (rowProducts (V m c main_v8) (V m c main_v17)) := by
  rw [Cert.KernelIdeal.Value.flushed2]
  unfold out0_2
  rw [View.canon_unit_zero origin]
  simp only [View.ld_unit_zero (S := S2048x1024) origin, View.ld_unit_zero (S := S512x1024) origin]
  obtain ⟨e0, e1, e2, e3, -, -⟩ := tile_indices t
  funext j
  show k0_pay1 (F := Ideal) (iblk m c 0 t) (iblk m c 1 t) j
    = rowProducts (V m c main_v8) (V m c main_v17) (((cfg0.win 2).blk t).view.emb j)
  refine ((congrArg (k0_pay1 (F := Ideal) (iblk m c 0 t) (iblk m c 1 t)) (eq_ix2 j)).trans
    (tile_entry (iblk m c 0 t) (iblk m c 1 t) (j 0) (j 1))).trans ?_
  unfold rowProducts
  refine Finset.sum_congr rfl fun k _ => ?_
  -- row p of the first block is row 2048·a + p of the first array
  have h0 : iblk m c 0 t (ix2 (j 0) k)
      = V m c main_v8 (ix2 (n0 := 8192) (n1 := 1024) ((((cfg0.win 2).blk t).view.emb j) 0) k) := by
    show V m c main_v8 (((cfg0.win 0).blk t).view.emb (ix2 (j 0) k)) = _
    refine congrArg (V m c main_v8) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 1024 + 1 * k.val = k.val
      omega
  -- row q of the second block is row 512·b + q of the second array
  have h1 : iblk m c 1 t (ix2 (j 1) k)
      = V m c main_v17 (ix2 (n0 := 8192) (n1 := 1024) ((((cfg0.win 2).blk t).view.emb j) 1) k) := by
    show V m c main_v17 (((cfg0.win 1).blk t).view.emb (ix2 (j 1) k)) = _
    refine congrArg (V m c main_v17) (funext fun a => Fin.ext ?_)
    match a with
    | ⟨0, _⟩ =>
      show win0_1.index t (0 : Fin 2) * 512 + 1 * (j 1).val = win0_2.index t (1 : Fin 2) * 512 + 1 * (j 1).val
      omega
    | ⟨1, _⟩ =>
      show win0_1.index t (1 : Fin 2) * 1024 + 1 * k.val = k.val
      omega
  rw [h0, h1]

/-- An entry of the result lies in point `t`'s tile iff each coordinate lies in the tile's range on its axis. -/
theorem mem_tile (t : Fin cfg0.N) (i : S8192x8192.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v18).slice (win0_2.rect t)).set ↔ _
  rw [View.set_slice_whole, Rect.mem_set_unit]
  exact Iff.rfl

/-- THE TILES COVER THE RESULT: entry (n, m) lies in the tile of the point at block row n / 2048, block
    column m / 512. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- THE RESULT ARRAY after the run is the whole table of row products of the two staged arrays. -/
theorem table (c : Dev nD) :
    (dats m 0 c).arrAt 2 cfg0.N = rowProducts (V m c main_v8) (V m c main_v17) :=
  (dats m 0 c).arrAt_eq_of_cover 2 _ (fun t _ => tile_written m c t) tiles_cover

end Cert.Cosine

end
-- ==== Proof.EntryArrays.lean ====
/-
  What the kernel's region finds in its two input arrays.

  Before the region the host divides every row of each input by the larger of its Euclidean norm and the
  threshold — multiply, sum along the row from zero, square root, maximum with the threshold, divide — and
  then narrows the quotient to a sixteen-bit float. Over the extended reals a change of float format is the
  identity, so each staged array holds exactly the normalised array the reference forms: the same
  operations, in the same order, on the same words.
-/
import proofs.«174538_j68917045232240_2_alg».proof.Proof.Gen.KernelIdeal.Frame
import proofs.«174538_j68917045232240_2_alg».proof.Proof.Gen.ReferenceIdeal.Read
import Idealize.ShloMosaic.Lib.StableHlo.Run

noncomputable section

namespace Cert.Cosine

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The first staged array is the first input with its rows normalised. -/
theorem entry_first (c : Dev nD) :
    (V m c main_v8 : S8192x1024.Idx → EReal)
      = Cert.ReferenceIdeal.Read.val_main_v7 (F := Ideal) (m ((c : Thread nD τ).loc main_arg0)) := by
  dsimp only [Gen.V, Gen.hostOps0]
  after_results
  rfl

/-- The second staged array is the second input with its rows normalised. -/
theorem entry_second (c : Dev nD) :
    (V m c main_v17 : S8192x1024.Idx → EReal)
      = Cert.ReferenceIdeal.Read.val_main_v9 (F := Ideal) (m ((c : Thread nD τ).loc main_arg1)) := by
  dsimp only [Gen.V, Gen.hostOps0]
  after_results
  rfl

end Cert.Cosine

end
-- ==== Proof.KernelRun.lean ====
/-
  The kernel's run, with its result named.

  Every weakly fair execution of the kernel's program ends with its result array holding the table of
  row products of the two row-normalised inputs — the tiles cover the table, and the staged arrays are the
  normalised inputs — and with the inputs unchanged.
-/
import proofs.«174538_j68917045232240_2_alg».proof.Proof.TiledTable
import proofs.«174538_j68917045232240_2_alg».proof.Proof.EntryArrays

noncomputable section

namespace Cert.Cosine

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result array is the row products of the normalised first input with the normalised second input. -/
theorem kernel_run : θ_run defs (onTc (τ := τ) (main (F := Ideal))) ⟨m, fun _ => 0, ρ⟩ fun r => ∀ c : Dev nD,
      r.2.mem ((c : Thread nD τ).loc main_v18)
        = rowProducts (Cert.ReferenceIdeal.Read.val_main_v7 (F := Ideal) (m ((c : Thread nD τ).loc main_arg0)))
            (Cert.ReferenceIdeal.Read.val_main_v9 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((table m c).trans (congrArg₂ rowProducts (entry_first m c) (entry_second m c))), (h c).2⟩)
    (Cert.KernelIdeal.Value.run_blocks m ρ)

end Cert.Cosine

end
-- ==== Proof.lean ====
/-
  Pairwise cosine similarity of the rows of two 8192 × 1024 inputs: the kernel and its reference compute
  one function.

  Both programs divide every row of each input by the larger of its Euclidean norm and a threshold — the
  same multiply, row sum from zero, square root, maximum and divide, on the same words — and then take all
  inner products of a normalised row of the first input with a normalised row of the second. The reference
  takes them in one contraction over the shared axis. The kernel narrows the normalised arrays to a
  sixteen-bit float, which over the extended reals changes nothing, and takes the products tile by tile on a
  4 × 16 grid, each tile a 2048 × 512 product from a zero accumulator; entry (n, m) of either is the sum over
  k of (first normalised array at (n, k)) · (second at (m, k)). No law of arithmetic beyond reading both
  sums at an entry is used, so finiteness of the inputs plays no part.

  The three frames: the two kernel programs run their one region to the end with the arguments untouched,
  and the reference is a straight line of host operations. The idealised kernel is the kernel's own text
  read over the extended reals, so nothing is owed for it.
-/
import proofs.«174538_j68917045232240_2_alg».proof.Defs
import proofs.«174538_j68917045232240_2_alg».proof.Proof.Gen.Kernel
import proofs.«174538_j68917045232240_2_alg».proof.Proof.Gen.Kernel.Skeleton
import proofs.«174538_j68917045232240_2_alg».proof.Proof.Gen.Kernel.Launch
import proofs.«174538_j68917045232240_2_alg».proof.Proof.Gen.Kernel.Points
import proofs.«174538_j68917045232240_2_alg».proof.Proof.Gen.Kernel.Frame
import proofs.«174538_j68917045232240_2_alg».proof.Proof.Gen.KernelIdeal
import proofs.«174538_j68917045232240_2_alg».proof.Proof.Gen.KernelIdeal.Skeleton
import proofs.«174538_j68917045232240_2_alg».proof.Proof.Gen.KernelIdeal.Launch
import proofs.«174538_j68917045232240_2_alg».proof.Proof.Gen.KernelIdeal.Points
import proofs.«174538_j68917045232240_2_alg».proof.Proof.Gen.KernelIdeal.Frame
import proofs.«174538_j68917045232240_2_alg».proof.Proof.Gen.ReferenceIdeal
import proofs.«174538_j68917045232240_2_alg».proof.Proof.Gen.Pre_finite_inputs
import proofs.«174538_j68917045232240_2_alg».proof.Proof.Gen.KernelIdeal.Value
import proofs.«174538_j68917045232240_2_alg».proof.Proof.Gen.ReferenceIdeal.Run
import proofs.«174538_j68917045232240_2_alg».proof.Proof.Gen.ReferenceIdeal.Read
import proofs.«174538_j68917045232240_2_alg».proof.Proof.ReferenceProducts
import proofs.«174538_j68917045232240_2_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes neither argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the table of row products of the two normalised
    inputs: the kernel tile by tile, the reference in one contraction read at an entry. -/
theorem algebraic : Cert.algebraic_KernelIdeal_ReferenceIdeal := by
  intro m ρ m' ρ' _ hagree
  refine ⟨_, Cert.Cosine.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Cosine.reference_products, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
